-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S64 : Shape := ⟨1, ![64]⟩
abbrev S180224x1024 : Shape := ⟨2, ![180224, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S180224x1024 : S_.BroadcastsInDim S180224x1024 (![] : Fin 0 → Fin S180224x1024.rank)
  reducesTo_S180224x1024_S_d0_1 : S180224x1024.ReducesTo [0, 1] S_

variable [Facts]

def fn_part1 {F : FTy → Type} [FloatOps F] (main_v13 : IVec S_ 1) (main_v16 : IVec S180224x1024 1) : IVec S_ 1 :=
  let main_c_5 : IVec S_ 1 := constantI S_ 1 1#1
  let main_v17 : IVec S_ 1 := (fun x v => Host.reduce IntOp.andi x v reducesTo_S180224x1024_S_d0_1 h_S_) main_v16 main_c_5
  let main_v18 : IVec S_ 1 := andi main_v13 main_v17
  main_v18

def fn {F : FTy → Type} [FloatOps F] (main_arg0 : FVec F S4096x1024 .f32) (main_arg1 : IVec S64 32) (main_arg2 : FVec F S180224x1024 .f32) (main_arg3 : FVec F S180224x1024 .f32) (main_arg4 : FVec F S180224x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S180224x1024 .f32 := Host.absf main_arg2
  let main_cst_0 : FVec F S_ .f32 := constant S_ .f32 0x7F800000#32
  let main_v5 : FVec F S180224x1024 .f32 := broadcastInDim S180224x1024 ![] bcast_S_S180224x1024 main_cst_0
  let main_v6 : IVec S180224x1024 1 := cmpf .olt main_v4 main_v5
  let main_c_1 : IVec S_ 1 := constantI S_ 1 1#1
  let main_v7 : IVec S_ 1 := (fun x v => Host.reduce IntOp.andi x v reducesTo_S180224x1024_S_d0_1 h_S_) main_v6 main_c_1
  let main_v8 : IVec S_ 1 := andi main_v3 main_v7
  let main_v9 : FVec F S180224x1024 .f32 := Host.absf main_arg3
  let main_cst_2 : FVec F S_ .f32 := constant S_ .f32 0x7F800000#32
  let main_v10 : FVec F S180224x1024 .f32 := broadcastInDim S180224x1024 ![] bcast_S_S180224x1024 main_cst_2
  let main_v11 : IVec S180224x1024 1 := cmpf .olt main_v9 main_v10
  let main_c_3 : IVec S_ 1 := constantI S_ 1 1#1
  let main_v12 : IVec S_ 1 := (fun x v => Host.reduce IntOp.andi x v reducesTo_S180224x1024_S_d0_1 h_S_) main_v11 main_c_3
  let main_v13 : IVec S_ 1 := andi main_v8 main_v12
  let main_v14 : FVec F S180224x1024 .f32 := Host.absf main_arg4
  let main_cst_4 : FVec F S_ .f32 := constant S_ .f32 0x7F800000#32
  let main_v15 : FVec F S180224x1024 .f32 := broadcastInDim S180224x1024 ![] bcast_S_S180224x1024 main_cst_4
  let main_v16 : IVec S180224x1024 1 := cmpf .olt main_v14 main_v15
  fn_part1 (F := F) main_v13 main_v16
-- ==== Kernel.lean ====
abbrev S4096x1024 : Shape := ⟨2, ![4096, 1024]⟩
abbrev S64 : Shape := ⟨1, ![64]⟩
abbrev S180224x1024 : Shape := ⟨2, ![180224, 1024]⟩
abbrev S64x64x1024 : Shape := ⟨3, ![64, 64, 1024]⟩
abbrev S64x2816x1024 : Shape := ⟨3, ![64, 2816, 1024]⟩
abbrev S1x64x1024 : Shape := ⟨3, ![1, 64, 1024]⟩
abbrev S1x1408x1024 : Shape := ⟨3, ![1, 1408, 1024]⟩
abbrev S64x1024 : Shape := ⟨2, ![64, 1024]⟩
abbrev S1408x1024 : Shape := ⟨2, ![1408, 1024]⟩
abbrev S64x1408 : Shape := ⟨2, ![64, 1408]⟩

abbrev nBuf : Space → Nat
  | .hbm => 11
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S64, .i32⟩
  | .hbm, ⟨2, _⟩ => ⟨S180224x1024, .f32⟩
  | .hbm, ⟨3, _⟩ => ⟨S180224x1024, .f32⟩
  | .hbm, ⟨4, _⟩ => ⟨S180224x1024, .f32⟩
  | .hbm, ⟨5, _⟩ => ⟨S64x64x1024, .f32⟩
  | .hbm, ⟨6, _⟩ => ⟨S64x2816x1024, .f32⟩
  | .hbm, ⟨7, _⟩ => ⟨S64x2816x1024, .f32⟩
  | .hbm, ⟨8, _⟩ => ⟨S64x2816x1024, .f32⟩
  | .hbm, ⟨9, _⟩ => ⟨S64x64x1024, .f32⟩
  | .hbm, ⟨10, _⟩ => ⟨S4096x1024, .f32⟩
  | .local _ .vmem, ⟨0, _⟩ => ⟨S1x64x1024, .f32⟩
  | .local _ .vmem, ⟨1, _⟩ => ⟨S1x64x1024, .f32⟩
  | .local _ .vmem, ⟨2, _⟩ => ⟨S1x1408x1024, .f32⟩
  | .local _ .vmem, ⟨3, _⟩ => ⟨S1x1408x1024, .f32⟩
  | .local _ .vmem, ⟨4, _⟩ => ⟨S1x1408x1024, .f32⟩
  | .local _ .vmem, ⟨5, _⟩ => ⟨S1x1408x1024, .f32⟩
  | .local _ .vmem, ⟨6, _⟩ => ⟨S1x1408x1024, .f32⟩
  | .local _ .vmem, ⟨7, _⟩ => ⟨S1x1408x1024, .f32⟩
  | .local _ .vmem, ⟨8, _⟩ => ⟨S1x64x1024, .f32⟩
  | .local _ .vmem, ⟨9, _⟩ => ⟨S1x64x1024, .f32⟩
  | .local _ .vmem, ⟨10, _⟩ => ⟨S64x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![64, 2], ![false, false]⟩

def k0_cond2 (i : grid0.Coords) : BitVec 1 :=
  let arg1 : BitVec 32 := BitVec.ofNat 32 (i 1).val
  let c1_i32 : BitVec 32 := 1#32
  let v27 : BitVec 1 := Scalar.cmpi .eq arg1 c1_i32
  let v28 : BitVec 32 := Scalar.extui v27
  let c0_i32_18 : BitVec 32 := 0#32
  let v29 : BitVec 1 := Scalar.cmpi .ne v28 c0_i32_18
  v29

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1408x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1408x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S4096x1024_S64x64x1024 : S4096x1024.ShapeCasts S64x64x1024
  shapeCasts_S180224x1024_S64x2816x1024 : S180224x1024.ShapeCasts S64x2816x1024
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  bitsLt_bf16_f32 : FTy.bits .bf16 < FTy.bits .f32
  inb_S1x1408x1024_S1x1408x1024_0_0_0 : ∀ a, (![0, 0, 0] : Fin 3 → Nat) a + S1x1408x1024.size a ≤ S1x1408x1024.size a
  h_S1x1408x1024 : 0 < S1x1408x1024.numel
  shapeCasts_S1x1408x1024_S1408x1024 : S1x1408x1024.ShapeCasts S1408x1024
  shapeCasts_S64x1024_S1x64x1024 : S64x1024.ShapeCasts S1x64x1024
  shapeCasts_S64x64x1024_S4096x1024 : S64x64x1024.ShapeCasts S4096x1024
  dot_S64x1024_S1408x1024_S64x1408_1_1_0_0_n_n_wf : DotDims.WF S64x1024 S1408x1024 S64x1408 [1] [1] [0] [0] [] []
  dot_S64x1408_S1408x1024_S64x1024_1_0_0_1_n_n_wf : DotDims.WF S64x1408 S1408x1024 S64x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x1024.size a ≤ S64x64x1024.size a
  hwx0_0 : ∀ i : grid0.Coords, EltTy.bits .f32 = 32 ∨ (Rect.block (s := S64x64x1024) S1x64x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1408x1024.size a ≤ S64x2816x1024.size a
  hwx0_1 : ∀ i : grid0.Coords, EltTy.bits .f32 = 32 ∨ (Rect.block (s := S64x2816x1024) S1x1408x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1408x1024.size a ≤ S64x2816x1024.size a
  hwx0_2 : ∀ i : grid0.Coords, EltTy.bits .f32 = 32 ∨ (Rect.block (s := S64x2816x1024) S1x1408x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1408x1024.size a ≤ S64x2816x1024.size a
  hwx0_3 : ∀ i : grid0.Coords, EltTy.bits .f32 = 32 ∨ (Rect.block (s := S64x2816x1024) S1x1408x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x1024.size a ≤ S64x64x1024.size a
  hwx0_4 : ∀ i : grid0.Coords, EltTy.bits .f32 = 32 ∨ (Rect.block (s := S64x64x1024) S1x64x1024.size (cc0_transform_4 i) (hinb0_4 i)).WholeWords (EltTy.packing .f32)

variable [Facts₀]

def dot_S64x1024_S1408x1024_S64x1408_1_1_0_0_n_n : DotDims S64x1024 S1408x1024 S64x1408 where
  lhsContracting := [1]
  rhsContracting := [1]
  lhsNonContracting := [0]
  rhsNonContracting := [0]
  lhsBatch := []
  rhsBatch := []
  wf := dot_S64x1024_S1408x1024_S64x1408_1_1_0_0_n_n_wf
def dot_S64x1408_S1408x1024_S64x1024_1_0_0_1_n_n : DotDims S64x1408 S1408x1024 S64x1024 where
  lhsContracting := [1]
  rhsContracting := [0]
  lhsNonContracting := [0]
  rhsNonContracting := [1]
  lhsBatch := []
  rhsBatch := []
  wf := dot_S64x1408_S1408x1024_S64x1024_1_0_0_1_n_n_wf

abbrev win0_0 : Pipeline.Window sig grid0 :=
  Pipeline.Window.ofSpec (Memref.whole main_v0) S1x64x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1408x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1408x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1408x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x64x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4096x1024 : Shape := ⟨2, ![4096, 1024]⟩
abbrev S64 : Shape := ⟨1, ![64]⟩
abbrev S180224x1024 : Shape := ⟨2, ![180224, 1024]⟩
abbrev S64x64x1024 : Shape := ⟨3, ![64, 64, 1024]⟩
abbrev S64x2816x1024 : Shape := ⟨3, ![64, 2816, 1024]⟩
abbrev S64x64x2816 : Shape := ⟨3, ![64, 64, 2816]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S64, .i32⟩
  | .hbm, ⟨2, _⟩ => ⟨S180224x1024, .f32⟩
  | .hbm, ⟨3, _⟩ => ⟨S180224x1024, .f32⟩
  | .hbm, ⟨4, _⟩ => ⟨S180224x1024, .f32⟩
  | .hbm, ⟨5, _⟩ => ⟨S64x64x1024, .f32⟩
  | .hbm, ⟨6, _⟩ => ⟨S64x2816x1024, .f32⟩
  | .hbm, ⟨7, _⟩ => ⟨S64x2816x1024, .f32⟩
  | .hbm, ⟨8, _⟩ => ⟨S64x2816x1024, .f32⟩
  | .hbm, ⟨9, _⟩ => ⟨S64x64x2816, .f32⟩
  | .hbm, ⟨10, _⟩ => ⟨S64x64x2816, .f32⟩
  | .hbm, ⟨11, _⟩ => ⟨S64x64x2816, .f32⟩
  | .hbm, ⟨12, _⟩ => ⟨S64x64x2816, .f32⟩
  | .hbm, ⟨13, _⟩ => ⟨S_, .f32⟩
  | .hbm, ⟨14, _⟩ => ⟨S64x64x2816, .f32⟩
  | .hbm, ⟨15, _⟩ => ⟨S64x64x2816, .f32⟩
  | .hbm, ⟨16, _⟩ => ⟨S_, .f32⟩
  | .hbm, ⟨17, _⟩ => ⟨S64x64x2816, .f32⟩
  | .hbm, ⟨18, _⟩ => ⟨S64x64x2816, .f32⟩
  | .hbm, ⟨19, _⟩ => ⟨S64x64x2816, .f32⟩
  | .hbm, ⟨20, _⟩ => ⟨S64x64x2816, .f32⟩
  | .hbm, ⟨21, _⟩ => ⟨S64x64x1024, .f32⟩
  | .hbm, ⟨22, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩

abbrev nD : Nat := 1
abbrev τ : Topo := Topo.v7x

variable {F : FTy → Type} [FloatOps F]

class Facts₀ : Prop where
  shapeCasts_S4096x1024_S64x64x1024 : S4096x1024.ShapeCasts S64x64x1024
  shapeCasts_S180224x1024_S64x2816x1024 : S180224x1024.ShapeCasts S64x2816x1024
  bcast_S_S64x64x2816 : S_.BroadcastsInDim S64x64x2816 (![] : Fin 0 → Fin S64x64x2816.rank)
  shapeCasts_S64x64x1024_S4096x1024 : S64x64x1024.ShapeCasts S4096x1024
  dot_S64x64x1024_S64x2816x1024_S64x64x2816_2_2_1_1_0_0_wf : DotDims.WF S64x64x1024 S64x2816x1024 S64x64x2816 [2] [2] [1] [1] [0] [0]
  dot_S64x64x2816_S64x2816x1024_S64x64x1024_2_1_1_2_0_0_wf : DotDims.WF S64x64x2816 S64x2816x1024 S64x64x1024 [2] [1] [1] [2] [0] [0]

variable [Facts₀]

def dot_S64x64x1024_S64x2816x1024_S64x64x2816_2_2_1_1_0_0 : DotDims S64x64x1024 S64x2816x1024 S64x64x2816 where
  lhsContracting := [2]
  rhsContracting := [2]
  lhsNonContracting := [1]
  rhsNonContracting := [1]
  lhsBatch := [0]
  rhsBatch := [0]
  wf := dot_S64x64x1024_S64x2816x1024_S64x64x2816_2_2_1_1_0_0_wf
def dot_S64x64x2816_S64x2816x1024_S64x64x1024_2_1_1_2_0_0 : DotDims S64x64x2816 S64x2816x1024 S64x64x1024 where
  lhsContracting := [2]
  rhsContracting := [1]
  lhsNonContracting := [1]
  rhsNonContracting := [2]
  lhsBatch := [0]
  rhsBatch := [0]
  wf := dot_S64x64x2816_S64x2816x1024_S64x64x1024_2_1_1_2_0_0_wf

class Facts : Prop extends Facts₀ where

variable [Facts]
-- ==== Proof.Pieces.lean ====
/-
  What one run of the kernel body leaves behind, as values, for any float type.

  The body works on whole staging buffers: a token block `x0`, one tile each of the three weight matrices `x1`, `x2`,
  `x3`, and an accumulator that lives across the two feature tiles of an expert. Writing `step x0 x1 x2 x3 acc` for the
  body's arithmetic `acc + (gated activations of the tile) · (down-projection tile)` (the generated `k0_pay2`):

    * at the first tile of an expert the accumulator is zeroed and then updated: it ends at `step … 0`;
    * at the second tile the accumulator is updated from what the first left, `xs0`: it ends at `step … xs0`, and that
      same value, given a leading unit axis (`k0_pay3`), is what the output block receives.

  Each statement reads the last store covering the buffer; the loads read whole buffers, so they return the contents.
-/
import proofs.«132635_j2302102471523_2_alg».proof.Proof.Gen.KernelIdeal.Frame
import Idealize.ShloMosaic.Lib.Pipeline.Value
import Idealize.ShloMosaic.Lib.Tactic

noncomputable section

namespace Cert.KernelIdeal.BodyValue

open Cert.KernelIdeal Cert.KernelIdeal.Gen
open Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Second tile: the accumulator, found holding `xs0`, ends one step further. -/
theorem scratch_B (c : Dev nD) (i : grid0.Coords) (arg2 : Memref sig .tc .vmem S1x64x1024 .f32) (harg2 : arg2.IsWhole) (arg3 : Memref sig .tc .vmem S1x1408x1024 .f32) (harg3 : arg3.IsWhole) (arg4 : Memref sig .tc .vmem S1x1408x1024 .f32) (harg4 : arg4.IsWhole) (arg5 : Memref sig .tc .vmem S1x1408x1024 .f32) (harg5 : arg5.IsWhole) (arg6 : Memref sig .tc .vmem S1x64x1024 .f32) (harg6 : arg6.IsWhole) (arg7 : Memref sig .tc .vmem S64x1024 .f32) (harg7 : arg7.IsWhole) (hc0 : ¬cond0_0 i) (hc1 : cond0_1 i) (x0 : Vec F S1x64x1024 .f32) (x1 : Vec F S1x1408x1024 .f32) (x2 : Vec F S1x1408x1024 .f32) (x3 : Vec F S1x1408x1024 .f32) (xs0 : Vec F S64x1024 .f32) :
    sout0_B_0 c i arg2 harg2 arg3 harg3 arg4 harg4 arg5 harg5 arg6 harg6 arg7 harg7 hc0 hc1 x0 x1 x2 x3 xs0 = k0_pay2 x0 x1 x2 x3 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero hz2]
  simp only [View.readAt_eq_ld, harg2.read_unread, harg3.read_unread, harg4.read_unread, harg5.read_unread,
    harg7.read_unread, View.ld_unit_zero (S := S1x64x1024) hz3, View.ld_unit_zero (S := S1x1408x1024) hz3,
    View.ld_unit_zero (S := S64x1024) hz2]

/-- Second tile: the output block receives the updated accumulator under a leading unit axis. -/
theorem out_B (c : Dev nD) (i : grid0.Coords) (arg2 : Memref sig .tc .vmem S1x64x1024 .f32) (harg2 : arg2.IsWhole) (arg3 : Memref sig .tc .vmem S1x1408x1024 .f32) (harg3 : arg3.IsWhole) (arg4 : Memref sig .tc .vmem S1x1408x1024 .f32) (harg4 : arg4.IsWhole) (arg5 : Memref sig .tc .vmem S1x1408x1024 .f32) (harg5 : arg5.IsWhole) (arg6 : Memref sig .tc .vmem S1x64x1024 .f32) (harg6 : arg6.IsWhole) (arg7 : Memref sig .tc .vmem S64x1024 .f32) (harg7 : arg7.IsWhole) (hc0 : ¬cond0_0 i) (hc1 : cond0_1 i) (x0 : Vec F S1x64x1024 .f32) (x1 : Vec F S1x1408x1024 .f32) (x2 : Vec F S1x1408x1024 .f32) (x3 : Vec F S1x1408x1024 .f32) (xs0 : Vec F S64x1024 .f32) :
    out0_B_4 c i arg2 harg2 arg3 harg3 arg4 harg4 arg5 harg5 arg6 harg6 arg7 harg7 hc0 hc1 x0 x1 x2 x3 xs0 = k0_pay3 (k0_pay2 x0 x1 x2 x3 xs0) := by
  unfold out0_B_4
  rw [View.read_writes_eq_canon _ _ _ (cover0_B_4 c i arg2 harg2 arg3 harg3 arg4 harg4 arg5 harg5 arg6 harg6 arg7 harg7 hc0 hc1 x0 x1 x2 x3 xs0)]
  unfold kernelRun0_B
  dsimp only
  sl_unfold_words
  rw [View.canon_unit_zero hz3, View.readCov_unit_zero (S := S64x1024) _ hz2]
  simp only [View.readAt_eq_ld, harg2.read_unread, harg3.read_unread, harg4.read_unread, harg5.read_unread,
    harg7.read_unread, View.ld_unit_zero (S := S1x64x1024) hz3, View.ld_unit_zero (S := S1x1408x1024) hz3,
    View.ld_unit_zero (S := S64x1024) hz2]

/-- First tile: the accumulator is zeroed, read back, and ends one step from zero. -/
theorem scratch_A (c : Dev nD) (i : grid0.Coords) (arg2 : Memref sig .tc .vmem S1x64x1024 .f32) (harg2 : arg2.IsWhole) (arg3 : Memref sig .tc .vmem S1x1408x1024 .f32) (harg3 : arg3.IsWhole) (arg4 : Memref sig .tc .vmem S1x1408x1024 .f32) (harg4 : arg4.IsWhole) (arg5 : Memref sig .tc .vmem S1x1408x1024 .f32) (harg5 : arg5.IsWhole) (arg6 : Memref sig .tc .vmem S1x64x1024 .f32) (harg6 : arg6.IsWhole) (arg7 : Memref sig .tc .vmem S64x1024 .f32) (harg7 : arg7.IsWhole) (hc0 : cond0_0 i) (hc1 : ¬cond0_1 i) (x0 : Vec F S1x64x1024 .f32) (x1 : Vec F S1x1408x1024 .f32) (x2 : Vec F S1x1408x1024 .f32) (x3 : Vec F S1x1408x1024 .f32) :
    sout0_A_0 c i arg2 harg2 arg3 harg3 arg4 harg4 arg5 harg5 arg6 harg6 arg7 harg7 hc0 hc1 x0 x1 x2 x3 = k0_pay2 x0 x1 x2 x3 (k0_pay1 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S64x1024) hz2, View.readCov_unit_zero (S := S64x1024) _ hz2]
  simp only [View.readAt_eq_ld, harg2.read_unread, harg3.read_unread, harg4.read_unread, harg5.read_unread,
    View.ld_unit_zero (S := S1x64x1024) hz3, View.ld_unit_zero (S := S1x1408x1024) hz3]

end Cert.KernelIdeal.BodyValue

end
-- ==== Proof.Accum.lean ====
/-
  What an expert's second grid point writes back.

  The accumulator is carried from an expert's first point (feature tile 0) to its second (feature tile 1). At the first
  point it is reset to zero and stepped once; at the second it is stepped again from what the first left, and the result
  goes to the output block. So the block written back at an odd point `t` is two steps from zero: the first with the
  blocks of point `t - 1`, the second with the blocks of point `t`.
-/
import proofs.«132635_j2302102471523_2_alg».proof.Proof.Pieces

noncomputable section

namespace Cert.KernelIdeal.Accum

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- The grid point before `t`. -/
def prev (t : Fin cfg0.N) : Fin cfg0.N := ⟨t.val - 1, Nat.lt_of_le_of_lt (Nat.sub_le _ _) t.isLt⟩

/-- One step of the body's arithmetic from the accumulator `acc`, on the blocks the windows hold at point `t`. -/
def stepAt (c : Dev nD) (t : Fin cfg0.N) (acc : Vec F S64x1024 .f32) : Vec F S64x1024 .f32 :=
  k0_pay2 (iblk m c 0 t) (iblk m c 1 t) (iblk m c 2 t) (iblk m c 3 t) acc

/-- After an even point the accumulator is one step from zero. -/
theorem acc_even (c : Dev nD) (t : Fin cfg0.N) (h0 : t.val % 2 = 0) :
    (outsAt0 m c t.val t.isLt).2 = stepAt m c t (k0_pay1 (F := F)) := by
  have h1 : ¬t.val % 2 = 1 := by omega
  rw [outsAt0_A m c t h0 h1]
  dsimp only
  exact BodyValue.scratch_A c (grid0.coords t) (ms0_0 t) (hs0_0 t) (ms0_1 t) (hs0_1 t) (ms0_2 t) (hs0_2 t) (ms0_3 t) (hs0_3 t) (ms0_4 t) (hs0_4 t) scM0_0 (Memref.isWhole_whole _)
    ((hcond0_0 t).mpr h0) (fun h => h1 ((hcond0_1 t).mp h)) (iblk m c 0 t) (iblk m c 1 t) (iblk m c 2 t) (iblk m c 3 t)

/-- After an odd point the output block is the accumulator, two steps from zero, under a leading unit axis. -/
theorem out_odd (c : Dev nD) (t : Fin cfg0.N) (h1 : t.val % 2 = 1) :
    (outsAt0 m c t.val t.isLt).1 = k0_pay3 (stepAt m c t (stepAt m c (prev t) (k0_pay1 (F := F)))) := by
  have h0 : ¬t.val % 2 = 0 := by omega
  rw [outsAt0_B m c t h0 h1]
  dsimp only
  refine (BodyValue.out_B c (grid0.coords t) (ms0_0 t) (hs0_0 t) (ms0_1 t) (hs0_1 t) (ms0_2 t) (hs0_2 t) (ms0_3 t) (hs0_3 t) (ms0_4 t) (hs0_4 t) scM0_0 (Memref.isWhole_whole _)
    (fun h => h0 ((hcond0_0 t).mp h)) ((hcond0_1 t).mpr h1) (iblk m c 0 t) (iblk m c 1 t) (iblk m c 2 t) (iblk m c 3 t)
    (outsAt0 m c (t.val - 1) (Nat.lt_of_le_of_lt (Nat.sub_le _ _) t.isLt)).2).trans ?_
  refine congrArg (fun a => k0_pay3 (stepAt m c t a)) ?_
  exact acc_even m c (prev t) (by show (t.val - 1) % 2 = 0; omega)

end Cert.KernelIdeal.Accum

end
-- ==== Proof.Spec.lean ====
/-
  The mathematics both programs compute, with no program in sight.

  Tokens come grouped by expert: `X (e, t, h)` is coordinate `h` of token `t` of expert `e` (64 experts, 64 tokens each,
  1024 coordinates). Each expert has three weight matrices with 2816 rows of 1024 coordinates: `W1`, `W3` (the two
  up-projections) and `W2` (the down-projection). For expert `e` and token `t`

      a f = ∑ h, X (e, t, h) · W1 (e, f, h)          b f = ∑ h, X (e, t, h) · W3 (e, f, h)
      out (e, t, c) = ∑ f, (a f · logistic (a f) · b f) · W2 (e, f, c)

  over the extended reals. The one law needed later: the sum over the 2816 features is the sum over the first 1408
  plus the sum over the last 1408, started from zero — a regrouping of a finite sum in a commutative monoid, valid at
  the infinities too.
-/
import Idealize.ShloMosaic.Lib.ValueIdx
import Idealize.ShloMosaic.PureOps.Ideal.Laws

noncomputable section

namespace Cert.ExpertMlp

open Idealize.ShloMosaic Idealize.ShloMosaic.ValueIdx

/-- Tokens grouped by expert: expert, token, coordinate. -/
abbrev Tok : Shape := ⟨3, ![64, 64, 1024]⟩
/-- Weights grouped by expert: expert, feature, coordinate. -/
abbrev Wts : Shape := ⟨3, ![64, 2816, 1024]⟩

/-- The gated activation of a pair of pre-activations: `a · logistic a · b`. -/
def gate (a b : EReal) : EReal := a * Ideal.logistic a * b

/-- The pre-activation of token `t` of expert `e` at feature `f`: the token against row `f` of the expert's matrix. -/
def pre (X : Tok.Idx → EReal) (W : Wts.Idx → EReal) (e t : Fin 64) (f : Fin 2816) : EReal :=
  ∑ h : Fin 1024, X (ix3 e t h) * W (ix3 e f h)

/-- One term of the down-projection: the gated activation at feature `f` times the down weight at `(f, c)`. -/
def term (X : Tok.Idx → EReal) (W1 W3 W2 : Wts.Idx → EReal) (e t : Fin 64) (c : Fin 1024) (f : Fin 2816) : EReal :=
  gate (pre X W1 e t f) (pre X W3 e t f) * W2 (ix3 e f c)

/-- The whole layer, index by index. -/
def mlp (X : Tok.Idx → EReal) (W1 W3 W2 : Wts.Idx → EReal) : Tok.Idx → EReal :=
  fun i => ∑ f : Fin 2816, term X W1 W3 W2 (i 0) (i 1) (i 2) f

theorem mlp_apply (X : Tok.Idx → EReal) (W1 W3 W2 : Wts.Idx → EReal) (e t : Fin 64) (c : Fin 1024) :
    mlp X W1 W3 W2 (ix3 e t c) = ∑ f : Fin 2816, term X W1 W3 W2 e t c f := rfl

/-- The binary word of `1.0` denotes the extended real `1`. -/
theorem one_f32 : Ideal.ofBits .f32 0x3F800000#32 = 1 := by
  simp [Ideal.ofBits, Ideal.ieee, -EReal.coe_mul]; norm_num

/-- Feature `k` of half `j` of the 2816 features (two halves of 1408). -/
def feat (j : Fin 2) (k : Fin 1408) : Fin 2816 := ⟨j.val * 1408 + k.val, by have := j.isLt; have := k.isLt; omega⟩

@[simp] theorem feat_val (j : Fin 2) (k : Fin 1408) : (feat j k).val = j.val * 1408 + k.val := rfl

/-- A sum over the 2816 features is the first half's sum added to zero, then the second half's sum added to that. -/
theorem sum_halves (g : Fin 2816 → EReal) :
    ∑ f : Fin 2816, g f = (0 + ∑ k : Fin 1408, g (feat 0 k)) + ∑ k : Fin 1408, g (feat 1 k) := by
  rw [zero_add]
  have h := Fin.sum_univ_add (M := EReal) (a := 1408) (b := 1408) g
  refine h.trans (congrArg₂ (· + ·) ?_ ?_)
  · exact Finset.sum_congr rfl fun k _ => congrArg g (Fin.ext (by show k.val = 0 * 1408 + k.val; omega))
  · exact Finset.sum_congr rfl fun k _ => congrArg g (Fin.ext (by show 1408 + k.val = 1 * 1408 + k.val; omega))

end Cert.ExpertMlp

end
-- ==== Proof.TileStep.lean ====
/-
  The body's arithmetic, read entry by entry over the extended reals.

  One step takes a token block `x` (64 tokens × 1024 coordinates, under a leading unit axis), a tile of 1408 rows of
  each weight matrix (`w1`, `w3`, `w2`, each 1408 × 1024 under a leading unit axis) and the accumulator `acc`, and
  returns, at token `r` and coordinate `c`,

      acc (r, c) + ∑ k < 1408, gate (∑ h, x (r, h) · w1 (k, h)) (∑ h, x (r, h) · w3 (k, h)) · w2 (k, c).

  The two up-projections contract the coordinate axis of both operands (each row of the tile against the token); the
  down-projection is a plain matrix product over the tile's 1408 features. Changes of float format are the identity
  here and the products start from a zero accumulator, so each is exactly its sum.
-/
import proofs.«132635_j2302102471523_2_alg».proof.Proof.Gen.KernelIdeal.Skeleton
import proofs.«132635_j2302102471523_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.TileStep

open Cert.KernelIdeal Cert.KernelIdeal.Gen
open Idealize.ShloMosaic Idealize.ShloMosaic.ValueIdx Cert.ExpertMlp

/-! ## The up-projection: token `r` against row `k` of the tile -/

theorem up_lhs0 (j : S64x1408.Idx) (q : dot_S64x1024_S1408x1024_S64x1408_1_1_0_0_n_n.contr.Idx) : (dot_S64x1024_S1408x1024_S64x1408_1_1_0_0_n_n.lhsIdx j q 0).val = (j 0).val := by
  unfold DotDims.lhsIdx
  rw [dif_neg (show ¬(0 : Fin S64x1024.rank) ∈ dot_S64x1024_S1408x1024_S64x1408_1_1_0_0_n_n.lhsBatch by decide),
    dif_pos (show (0 : Fin S64x1024.rank) ∈ dot_S64x1024_S1408x1024_S64x1408_1_1_0_0_n_n.lhsNonContracting by decide)]
  rfl
theorem up_rhs0 (j : S64x1408.Idx) (q : dot_S64x1024_S1408x1024_S64x1408_1_1_0_0_n_n.contr.Idx) : (dot_S64x1024_S1408x1024_S64x1408_1_1_0_0_n_n.rhsIdx j q 0).val = (j 1).val := by
  unfold DotDims.rhsIdx
  rw [dif_neg (show ¬(0 : Fin S1408x1024.rank) ∈ dot_S64x1024_S1408x1024_S64x1408_1_1_0_0_n_n.rhsBatch by decide),
    dif_pos (show (0 : Fin S1408x1024.rank) ∈ dot_S64x1024_S1408x1024_S64x1408_1_1_0_0_n_n.rhsNonContracting by decide)]
  rfl

/-- The product into a zero accumulator that contracts the second axis of both operands, at `(r, k)`. -/
theorem up_apply (l : FVec Ideal S64x1024 .bf16) (w : FVec Ideal S1408x1024 .bf16) (r : Fin 64) (k : Fin 1408) :
    matmul dot_S64x1024_S1408x1024_S64x1408_1_1_0_0_n_n none l w (constant (F := Ideal) S64x1408 .f32 0x00000000#32) (ix2 r k)
      = ∑ h : Fin 1024, l (ix2 r h) * w (ix2 k h) := by
  refine (Ideal.matmul_constant_zero_apply dot_S64x1024_S1408x1024_S64x1408_1_1_0_0_n_n none l w (ix2 r k)).trans ?_
  rw [← Equiv.sum_comp (contrEquiv1 dot_S64x1024_S1408x1024_S64x1408_1_1_0_0_n_n 1024 rfl rfl).symm]
  refine Finset.sum_congr rfl fun h _ => ?_
  have hk := contrEquiv1_symm_val dot_S64x1024_S1408x1024_S64x1408_1_1_0_0_n_n 1024 rfl rfl h
  have el : dot_S64x1024_S1408x1024_S64x1408_1_1_0_0_n_n.lhsIdx (ix2 r k) ((contrEquiv1 dot_S64x1024_S1408x1024_S64x1408_1_1_0_0_n_n 1024 rfl rfl).symm h) = ix2 r h :=
    funext fun a => Fin.ext (by
      match a with
      | ⟨0, _⟩ => exact up_lhs0 _ _
      | ⟨1, _⟩ => exact (dot_S64x1024_S1408x1024_S64x1408_1_1_0_0_n_n.lhsIdx_val_of_single (cl := (1 : Fin 2)) rfl _ _).trans hk)
  have er : dot_S64x1024_S1408x1024_S64x1408_1_1_0_0_n_n.rhsIdx (ix2 r k) ((contrEquiv1 dot_S64x1024_S1408x1024_S64x1408_1_1_0_0_n_n 1024 rfl rfl).symm h) = ix2 k h :=
    funext fun a => Fin.ext (by
      match a with
      | ⟨0, _⟩ => exact up_rhs0 _ _
      | ⟨1, _⟩ => exact (dot_S64x1024_S1408x1024_S64x1408_1_1_0_0_n_n.rhsIdx_val_of_single (cr := (1 : Fin 2)) rfl _ _).trans hk)
  rw [el, er]

/-! ## The down-projection: a plain product over the tile's features -/

theorem down_lhs0 (j : S64x1024.Idx) (q : dot_S64x1408_S1408x1024_S64x1024_1_0_0_1_n_n.contr.Idx) : (dot_S64x1408_S1408x1024_S64x1024_1_0_0_1_n_n.lhsIdx j q 0).val = (j 0).val := by
  unfold DotDims.lhsIdx
  rw [dif_neg (show ¬(0 : Fin S64x1408.rank) ∈ dot_S64x1408_S1408x1024_S64x1024_1_0_0_1_n_n.lhsBatch by decide),
    dif_pos (show (0 : Fin S64x1408.rank) ∈ dot_S64x1408_S1408x1024_S64x1024_1_0_0_1_n_n.lhsNonContracting by decide)]
  rfl
theorem down_rhs1 (j : S64x1024.Idx) (q : dot_S64x1408_S1408x1024_S64x1024_1_0_0_1_n_n.contr.Idx) : (dot_S64x1408_S1408x1024_S64x1024_1_0_0_1_n_n.rhsIdx j q 1).val = (j 1).val := by
  unfold DotDims.rhsIdx
  rw [dif_neg (show ¬(1 : Fin S1408x1024.rank) ∈ dot_S64x1408_S1408x1024_S64x1024_1_0_0_1_n_n.rhsBatch by decide),
    dif_pos (show (1 : Fin S1408x1024.rank) ∈ dot_S64x1408_S1408x1024_S64x1024_1_0_0_1_n_n.rhsNonContracting by decide)]
  rfl

/-- The plain product into a zero accumulator, at `(r, c)`. -/
theorem down_apply (g : FVec Ideal S64x1408 .bf16) (w : FVec Ideal S1408x1024 .bf16) (r : Fin 64) (c : Fin 1024) :
    matmul dot_S64x1408_S1408x1024_S64x1024_1_0_0_1_n_n none g w (constant (F := Ideal) S64x1024 .f32 0x00000000#32) (ix2 r c)
      = ∑ k : Fin 1408, g (ix2 r k) * w (ix2 k c) := by
  refine (Ideal.matmul_constant_zero_apply dot_S64x1408_S1408x1024_S64x1024_1_0_0_1_n_n none g w (ix2 r c)).trans ?_
  rw [← Equiv.sum_comp (contrEquiv1 dot_S64x1408_S1408x1024_S64x1024_1_0_0_1_n_n 1408 rfl rfl).symm]
  refine Finset.sum_congr rfl fun k _ => ?_
  have hk := contrEquiv1_symm_val dot_S64x1408_S1408x1024_S64x1024_1_0_0_1_n_n 1408 rfl rfl k
  have el : dot_S64x1408_S1408x1024_S64x1024_1_0_0_1_n_n.lhsIdx (ix2 r c) ((contrEquiv1 dot_S64x1408_S1408x1024_S64x1024_1_0_0_1_n_n 1408 rfl rfl).symm k) = ix2 r k :=
    funext fun a => Fin.ext (by
      match a with
      | ⟨0, _⟩ => exact down_lhs0 _ _
      | ⟨1, _⟩ => exact (dot_S64x1408_S1408x1024_S64x1024_1_0_0_1_n_n.lhsIdx_val_of_single (cl := (1 : Fin 2)) rfl _ _).trans hk)
  have er : dot_S64x1408_S1408x1024_S64x1024_1_0_0_1_n_n.rhsIdx (ix2 r c) ((contrEquiv1 dot_S64x1408_S1408x1024_S64x1024_1_0_0_1_n_n 1408 rfl rfl).symm k) = ix2 k c :=
    funext fun a => Fin.ext (by
      match a with
      | ⟨0, _⟩ => exact (dot_S64x1408_S1408x1024_S64x1024_1_0_0_1_n_n.rhsIdx_val_of_single (cr := (0 : Fin 2)) rfl _ _).trans hk
      | ⟨1, _⟩ => exact down_rhs1 _ _)
  rw [el, er]

/-! ## The step, the zero block, the lift -/

/-- The block the accumulator is reset to is zero everywhere. -/
theorem zero_apply (j : S64x1024.Idx) : k0_pay1 (F := Ideal) j = 0 := by
  unfold k0_pay1
  refine (congrFun (shapeCast_self _ _) j).trans ?_
  exact Ideal.ofBits_zero_f32

/-- The output block is the accumulator under a leading unit axis. -/
theorem lift_apply (v : Vec Ideal S64x1024 .f32) (u : Fin 1) (r : Fin 64) (c : Fin 1024) :
    k0_pay3 v (ix3 u r c) = v (ix2 r c) := by
  unfold k0_pay3
  exact shapeCast_ab_1ab_apply v _ u r c

/-- One step of the accumulation, at token `r` and coordinate `c`. -/
theorem step_apply (x : Vec Ideal S1x64x1024 .f32) (w1 w3 w2 : Vec Ideal S1x1408x1024 .f32) (acc : Vec Ideal S64x1024 .f32)
    (r : Fin 64) (c : Fin 1024) :
    k0_pay2 x w1 w3 w2 acc (ix2 r c)
      = acc (ix2 r c) + ∑ k : Fin 1408,
          gate (∑ h : Fin 1024, x (ix3 (0 : Fin 1) r h) * w1 (ix3 (0 : Fin 1) k h))
               (∑ h : Fin 1024, x (ix3 (0 : Fin 1) r h) * w3 (ix3 (0 : Fin 1) k h)) * w2 (ix3 (0 : Fin 1) k c) := by
  unfold k0_pay2
  refine (congrFun (shapeCast_self _ _) (ix2 r c)).trans ?_
  refine congrArg (acc (ix2 r c) + ·) ?_
  refine (down_apply _ _ r c).trans ?_
  refine Finset.sum_congr rfl fun k _ => ?_
  refine congrArg₂ (· * ·) ?_ (shapeCast_1ab_ab_apply w2 _ k c)
  have e1 : ∀ (w : Vec Ideal S1x1408x1024 .f32),
      matmul dot_S64x1024_S1408x1024_S64x1408_1_1_0_0_n_n none (truncf .bf16 (shapeCast S64x1024 x shapeCasts_S1x64x1024_S64x1024) bitsLt_bf16_f32)
        (truncf .bf16 (shapeCast S1408x1024 w shapeCasts_S1x1408x1024_S1408x1024) bitsLt_bf16_f32)
        (constant (F := Ideal) S64x1408 .f32 0x00000000#32) (ix2 r k)
      = ∑ h : Fin 1024, x (ix3 (0 : Fin 1) r h) * w (ix3 (0 : Fin 1) k h) := fun w =>
    (up_apply _ _ r k).trans (Finset.sum_congr rfl fun h _ =>
      congrArg₂ (· * ·) (shapeCast_1ab_ab_apply x _ r h) (shapeCast_1ab_ab_apply w _ k h))
  exact congrArg₂ gate (e1 w1) (e1 w3)

end Cert.KernelIdeal.TileStep

end
-- ==== Proof.Blocks.lean ====
/-
  Which entries of the arrays each grid point sees.

  The grid has 128 points, two per expert: point `t` works for expert `t / 2` on feature tile `t % 2`. The token window
  and the output window hold the expert's 64 × 1024 block (they do not move between an expert's two points); each
  weight window holds rows `1408 · (t % 2) … 1408 · (t % 2) + 1407` of the expert's matrix. A block's entry `(u, k, h)`
  is therefore the array's entry `(t / 2, 1408 · (t % 2) + k, h)` (for the tokens: `(t / 2, r, h)`).
-/
import proofs.«132635_j2302102471523_2_alg».proof.Proof.Gen.KernelIdeal.Frame
import proofs.«132635_j2302102471523_2_alg».proof.Proof.Spec
import Idealize.ShloMosaic.Lib.ValueIdx
import Idealize.ShloMosaic.Lib.Pipeline.Value

noncomputable section

namespace Cert.KernelIdeal.Blocks

open Cert.KernelIdeal Cert.KernelIdeal.Gen
open Idealize.ShloMosaic Idealize.ShloMosaic.TcCoe Idealize.SL.Sem Idealize.ShloMosaic.ValueIdx Cert.ExpertMlp

variable {F : FTy → Type} [FloatOps F]
variable (m : (ℓ : Loc nD τ sig) → Buf (Elt F) ℓ)

/-- The printed index maps, decided once over the grid: every window is at its expert's block, the weight windows at
    the point's feature tile. -/
theorem idx_facts : ∀ t : Fin cfg0.N,
    win0_0.index t (0 : Fin 3) = t.val / 2 ∧ win0_0.index t (1 : Fin 3) = 0 ∧ win0_0.index t (2 : Fin 3) = 0
    ∧ win0_1.index t (0 : Fin 3) = t.val / 2 ∧ win0_1.index t (1 : Fin 3) = t.val % 2 ∧ win0_1.index t (2 : Fin 3) = 0
    ∧ win0_2.index t (0 : Fin 3) = t.val / 2 ∧ win0_2.index t (1 : Fin 3) = t.val % 2 ∧ win0_2.index t (2 : Fin 3) = 0
    ∧ win0_3.index t (0 : Fin 3) = t.val / 2 ∧ win0_3.index t (1 : Fin 3) = t.val % 2 ∧ win0_3.index t (2 : Fin 3) = 0
    ∧ win0_4.index t (0 : Fin 3) = t.val / 2 ∧ win0_4.index t (1 : Fin 3) = 0 ∧ win0_4.index t (2 : Fin 3) = 0 :=
  (by decide +kernel : ∀ t : Fin grid0.N, _)

/-- The expert a grid point works for. -/
def expert (t : Fin cfg0.N) : Fin 64 := ⟨t.val / 2, by have := t.isLt; have : cfg0.N = 128 := N_0; omega⟩
/-- The feature tile a grid point works on. -/
def half (t : Fin cfg0.N) : Fin 2 := ⟨t.val % 2, by omega⟩

@[simp] theorem expert_val (t : Fin cfg0.N) : (expert t).val = t.val / 2 := rfl
@[simp] theorem half_val (t : Fin cfg0.N) : (half t).val = t.val % 2 := rfl

/-- The token block at point `t` is the expert's block of the token array. -/
theorem tok_blk (c : Dev nD) (t : Fin cfg0.N) (u : Fin 1) (r : Fin 64) (h : Fin 1024) :
    (iblk m c 0 t : Vec F S1x64x1024 .f32) (ix3 u r h) = V m c main_v0 (ix3 (expert t) r h) := by
  unfold iblk
  rw [View.read_apply]
  show V m c main_v0 _ = V m c main_v0 _
  refine congrArg (V m c main_v0) (funext fun a => Fin.ext ?_)
  have hu : u.val = 0 := by omega
  have e := idx_facts t
  match a with
  | ⟨0, _⟩ => show win0_0.index t (0 : Fin 3) * 1 + 1 * u.val = t.val / 2; omega
  | ⟨1, _⟩ => show win0_0.index t (1 : Fin 3) * 64 + 1 * r.val = r.val; omega
  | ⟨2, _⟩ => show win0_0.index t (2 : Fin 3) * 1024 + 1 * h.val = h.val; omega

/-- The first up-projection's tile at point `t`: rows of the expert's matrix from the point's feature tile. -/
theorem w1_blk (c : Dev nD) (t : Fin cfg0.N) (u : Fin 1) (k : Fin 1408) (h : Fin 1024) :
    (iblk m c 1 t : Vec F S1x1408x1024 .f32) (ix3 u k h) = V m c main_v1 (ix3 (expert t) (feat (half t) k) h) := by
  unfold iblk
  rw [View.read_apply]
  show V m c main_v1 _ = V m c main_v1 _
  refine congrArg (V m c main_v1) (funext fun a => Fin.ext ?_)
  have hu : u.val = 0 := by omega
  have e := idx_facts t
  match a with
  | ⟨0, _⟩ => show win0_1.index t (0 : Fin 3) * 1 + 1 * u.val = t.val / 2; omega
  | ⟨1, _⟩ => show win0_1.index t (1 : Fin 3) * 1408 + 1 * k.val = t.val % 2 * 1408 + k.val; omega
  | ⟨2, _⟩ => show win0_1.index t (2 : Fin 3) * 1024 + 1 * h.val = h.val; omega

/-- The second up-projection's tile likewise. -/
theorem w3_blk (c : Dev nD) (t : Fin cfg0.N) (u : Fin 1) (k : Fin 1408) (h : Fin 1024) :
    (iblk m c 2 t : Vec F S1x1408x1024 .f32) (ix3 u k h) = V m c main_v2 (ix3 (expert t) (feat (half t) k) h) := by
  unfold iblk
  rw [View.read_apply]
  show V m c main_v2 _ = V m c main_v2 _
  refine congrArg (V m c main_v2) (funext fun a => Fin.ext ?_)
  have hu : u.val = 0 := by omega
  have e := idx_facts t
  match a with
  | ⟨0, _⟩ => show win0_2.index t (0 : Fin 3) * 1 + 1 * u.val = t.val / 2; omega
  | ⟨1, _⟩ => show win0_2.index t (1 : Fin 3) * 1408 + 1 * k.val = t.val % 2 * 1408 + k.val; omega
  | ⟨2, _⟩ => show win0_2.index t (2 : Fin 3) * 1024 + 1 * h.val = h.val; omega

/-- The down-projection's tile likewise. -/
theorem w2_blk (c : Dev nD) (t : Fin cfg0.N) (u : Fin 1) (k : Fin 1408) (h : Fin 1024) :
    (iblk m c 3 t : Vec F S1x1408x1024 .f32) (ix3 u k h) = V m c main_v3 (ix3 (expert t) (feat (half t) k) h) := by
  unfold iblk
  rw [View.read_apply]
  show V m c main_v3 _ = V m c main_v3 _
  refine congrArg (V m c main_v3) (funext fun a => Fin.ext ?_)
  have hu : u.val = 0 := by omega
  have e := idx_facts t
  match a with
  | ⟨0, _⟩ => show win0_3.index t (0 : Fin 3) * 1 + 1 * u.val = t.val / 2; omega
  | ⟨1, _⟩ => show win0_3.index t (1 : Fin 3) * 1408 + 1 * k.val = t.val % 2 * 1408 + k.val; omega
  | ⟨2, _⟩ => show win0_3.index t (2 : Fin 3) * 1024 + 1 * h.val = h.val; omega

end Cert.KernelIdeal.Blocks

end
-- ==== Proof.Final.lean ====
/-
  The kernel's rank-three result array is the layer of the arrays the region finds.

  At an odd grid point `t` (expert `e = t / 2`) the block written back is two steps from zero. Read at token `r` and
  coordinate `c`, the first step adds the terms of features `0 … 1407` of expert `e` and the second those of features
  `1408 … 2815`: `(0 + ∑ first half) + ∑ second half`, which is the layer's sum over all 2816 features. The odd points'
  blocks are the 64 experts' blocks, so together they cover the array.
-/
import proofs.«132635_j2302102471523_2_alg».proof.Proof.Accum
import proofs.«132635_j2302102471523_2_alg».proof.Proof.TileStep
import proofs.«132635_j2302102471523_2_alg».proof.Proof.Blocks

noncomputable section

namespace Cert.KernelIdeal.Final

open Cert.KernelIdeal Cert.KernelIdeal.Gen
open Idealize.ShloMosaic Idealize.ShloMosaic.TcCoe Idealize.SL.Sem Idealize.ShloMosaic.ValueIdx
open Idealize.ShloMosaic.Pipeline (Dat)
open Cert.ExpertMlp Cert.KernelIdeal.Blocks Cert.KernelIdeal.Accum Cert.KernelIdeal.TileStep

variable (m : (ℓ : Loc nD τ sig) → Buf (Elt Ideal) ℓ)

/-- The layer of the four rank-three arrays as the region finds them. -/
def layer (c : Dev nD) : Buf (Elt Ideal) ((c : Thread nD τ).loc main_v4) :=
  mlp (V m c main_v0) (V m c main_v1) (V m c main_v2) (V m c main_v3)

/-- One step on the blocks of point `t` adds the point's 1408 terms of its expert. -/
theorem step_blocks (c : Dev nD) (t : Fin cfg0.N) (acc : Vec Ideal S64x1024 .f32) (r : Fin 64) (cc : Fin 1024) :
    stepAt m c t acc (ix2 r cc)
      = acc (ix2 r cc) + ∑ k : Fin 1408,
          term (V m c main_v0) (V m c main_v1) (V m c main_v2) (V m c main_v3) (expert t) r cc (feat (half t) k) := by
  unfold stepAt
  refine (step_apply (iblk m c 0 t) (iblk m c 1 t) (iblk m c 2 t) (iblk m c 3 t) acc r cc).trans ?_
  refine congrArg (acc (ix2 r cc) + ·) (Finset.sum_congr rfl fun k _ => ?_)
  unfold term pre
  refine congrArg₂ (· * ·) (congrArg₂ gate ?_ ?_) (w2_blk m c t 0 k cc)
  · exact Finset.sum_congr rfl fun h _ => congrArg₂ (· * ·) (tok_blk m c t 0 r h) (w1_blk m c t 0 k h)
  · exact Finset.sum_congr rfl fun h _ => congrArg₂ (· * ·) (tok_blk m c t 0 r h) (w3_blk m c t 0 k h)

/-- An entry of the block an odd point writes back is the layer's entry for the point's expert. -/
theorem written_entry (c : Dev nD) (t : Fin cfg0.N) (h1 : t.val % 2 = 1) (u : Fin 1) (r : Fin 64) (cc : Fin 1024) :
    k0_pay3 (stepAt m c t (stepAt m c (prev t) (k0_pay1 (F := Ideal)))) (ix3 u r cc) = layer m c (ix3 (expert t) r cc) := by
  have he : expert (prev t) = expert t := Fin.ext (by show (t.val - 1) / 2 = t.val / 2; omega)
  have hp : half (prev t) = 0 := Fin.ext (by show (t.val - 1) % 2 = 0; omega)
  have ht : half t = 1 := Fin.ext (by show t.val % 2 = 1; exact h1)
  unfold layer
  rw [lift_apply, step_blocks, step_blocks, zero_apply, mlp_apply, sum_halves, he, hp, ht]

/-- What an odd point writes back is its block of the layer. -/
theorem flushed_eq (c : Dev nD) (t : Fin cfg0.N) (hf : (cfg0.win 4).flush t = true) :
    (dats m 0 c).flushed 4 t = ((cfg0.win 4).blk t).view.read (Elt Ideal) (layer m c) := by
  have h1 : t.val % 2 = 1 := (flush0_4 t).mp hf
  show (cfg0.win 4).cut (grid0.coords t) ((dats m 0 c).after 4 t) = _
  rw [after0_4, out_odd m c t h1]
  refine funext fun (j : S1x64x1024.Idx) => ?_
  rw [View.read_apply]
  have hemb : ((cfg0.win 4).blk t).view.emb j = ix3 (expert t) (j 1) (j 2) := funext fun a => Fin.ext (by
    have hu : (j 0).val = 0 := by have hlt : (j 0).val < 1 := (j 0).isLt; omega
    have e := idx_facts t
    match a with
    | ⟨0, _⟩ => show win0_4.index t (0 : Fin 3) * 1 + 1 * (j 0).val = t.val / 2; omega
    | ⟨1, _⟩ => show win0_4.index t (1 : Fin 3) * 64 + 1 * (j 1).val = (j 1).val; omega
    | ⟨2, _⟩ => show win0_4.index t (2 : Fin 3) * 1024 + 1 * (j 2).val = (j 2).val; omega)
  rw [hemb]
  exact (congrArg (k0_pay3 (stepAt m c t (stepAt m c (prev t) (k0_pay1 (F := Ideal))))) (eq_ix3 j)).trans
    (written_entry m c t h1 (j 0) (j 1) (j 2))

/-- An index of the array is in point `t`'s block iff each coordinate is in the block's range on its axis. -/
theorem mem_blk (t : Fin cfg0.N) (i : S64x64x1024.Idx) :
    i ∈ ((cfg0.win 4).blk t).view.set ↔ ∀ a : Fin 3, win0_4.index t a * S1x64x1024.size a ≤ (i a).val
      ∧ (i a).val < win0_4.index t a * S1x64x1024.size a + S1x64x1024.size a := by
  show i ∈ ((View.whole main_v4).slice (win0_4.rect t)).set ↔ _
  rw [View.set_slice_whole, Rect.mem_set_unit]
  exact Iff.rfl

/-- Every index of the array is in the block of its expert's odd point. -/
theorem cover (i : S64x64x1024.Idx) :
    ∃ t : Fin cfg0.N, (cfg0.win 4).flush t = true ∧ i ∈ ((cfg0.win 4).blk t).view.set := by
  have hN : cfg0.N = 128 := N_0
  have i0 : (i 0).val < 64 := (i 0).isLt
  have i1 : (i 1).val < 64 := (i 1).isLt
  have i2 : (i 2).val < 1024 := (i 2).isLt
  have htv : ∀ t : Fin cfg0.N, t.val = 2 * (i 0).val + 1 →
      (cfg0.win 4).flush t = true ∧ i ∈ ((cfg0.win 4).blk t).view.set := fun t ht => by
    refine ⟨(flush0_4 t).mpr (by omega), ?_⟩
    rw [mem_blk]
    intro a
    have e := idx_facts t
    match a with
    | ⟨0, _⟩ => show win0_4.index t (0 : Fin 3) * 1 ≤ (i 0).val ∧ (i 0).val < win0_4.index t (0 : Fin 3) * 1 + 1; omega
    | ⟨1, _⟩ => show win0_4.index t (1 : Fin 3) * 64 ≤ (i 1).val ∧ (i 1).val < win0_4.index t (1 : Fin 3) * 64 + 64; omega
    | ⟨2, _⟩ => show win0_4.index t (2 : Fin 3) * 1024 ≤ (i 2).val ∧ (i 2).val < win0_4.index t (2 : Fin 3) * 1024 + 1024; omega
  exact ⟨⟨2 * (i 0).val + 1, by omega⟩, htv _ rfl⟩

/-- So the result array of the region ends holding the layer. -/
theorem final (c : Dev nD) : (dats m 0 c).arrAt 4 cfg0.N = layer m c :=
  (dats m 0 c).arrAt_eq_of_cover 4 (layer m c) (flushed_eq m c) cover

end Cert.KernelIdeal.Final

end
-- ==== Proof.KernelRun.lean ====
/-
  The kernel's whole run, read as a value.

  Before the region the host reshapes the four float arguments to rank three (tokens by expert, each weight matrix by
  expert); after it the host reshapes the region's rank-three result back to rank two. With the region's result the layer
  of what it finds, the program's result is the reshaped layer of the reshaped arguments.
-/
import proofs.«132635_j2302102471523_2_alg».proof.Proof.Final
import Idealize.ShloMosaic.Lib.StableHlo.Run

noncomputable section

namespace Cert.KernelIdeal.KernelValue

open Cert.KernelIdeal Cert.KernelIdeal.Gen
open Idealize.ShloMosaic Idealize.ShloMosaic.TcCoe Idealize.SL.Sem Idealize.ShloMosaic.ValueIdx
open Idealize.ShloMosaic.Pipeline (Dat)
open Cert.ExpertMlp Cert.KernelIdeal.Final

variable (m : (ℓ : Loc nD τ sig) → Buf (Elt Ideal) ℓ) (ρ : Dev nD → PrngReg)

/-- The tokens as the region finds them: the first argument grouped by expert. -/
theorem V_tok (c : Dev nD) :
    V m c main_v0 = shapeCast S64x64x1024 (m ((c : Thread nD τ).loc main_arg0)) shapeCasts_S4096x1024_S64x64x1024 := by
  show StableHlo.after hostOps0 (fun b => m (c, b)) (Proc.devRef .tc main_v0) = _
  after_results
  rfl

/-- The three weight matrices as the region finds them: each argument grouped by expert. -/
theorem V_w1 (c : Dev nD) :
    V m c main_v1 = shapeCast S64x2816x1024 (m ((c : Thread nD τ).loc main_arg2)) shapeCasts_S180224x1024_S64x2816x1024 := by
  show StableHlo.after hostOps0 (fun b => m (c, b)) (Proc.devRef .tc main_v1) = _
  after_results
  rfl
theorem V_w3 (c : Dev nD) :
    V m c main_v2 = shapeCast S64x2816x1024 (m ((c : Thread nD τ).loc main_arg3)) shapeCasts_S180224x1024_S64x2816x1024 := by
  show StableHlo.after hostOps0 (fun b => m (c, b)) (Proc.devRef .tc main_v2) = _
  after_results
  rfl
theorem V_w2 (c : Dev nD) :
    V m c main_v3 = shapeCast S64x2816x1024 (m ((c : Thread nD τ).loc main_arg4)) shapeCasts_S180224x1024_S64x2816x1024 := by
  show StableHlo.after hostOps0 (fun b => m (c, b)) (Proc.devRef .tc main_v3) = _
  after_results
  rfl

/-- The program's result as a function of its arguments. -/
def result (c : Dev nD) : Buf (Elt Ideal) ((c : Thread nD τ).loc main_v5) :=
  shapeCast S4096x1024
    (mlp (shapeCast S64x64x1024 (m ((c : Thread nD τ).loc main_arg0)) shapeCasts_S4096x1024_S64x64x1024)
      (shapeCast S64x2816x1024 (m ((c : Thread nD τ).loc main_arg2)) shapeCasts_S180224x1024_S64x2816x1024)
      (shapeCast S64x2816x1024 (m ((c : Thread nD τ).loc main_arg3)) shapeCasts_S180224x1024_S64x2816x1024)
      (shapeCast S64x2816x1024 (m ((c : Thread nD τ).loc main_arg4)) shapeCasts_S180224x1024_S64x2816x1024))
    shapeCasts_S64x64x1024_S4096x1024

/-- The layer of what the region finds is the layer of the reshaped arguments. -/
theorem layer_eq (c : Dev nD) : layer m c
    = mlp (shapeCast S64x64x1024 (m ((c : Thread nD τ).loc main_arg0)) shapeCasts_S4096x1024_S64x64x1024)
      (shapeCast S64x2816x1024 (m ((c : Thread nD τ).loc main_arg2)) shapeCasts_S180224x1024_S64x2816x1024)
      (shapeCast S64x2816x1024 (m ((c : Thread nD τ).loc main_arg3)) shapeCasts_S180224x1024_S64x2816x1024)
      (shapeCast S64x2816x1024 (m ((c : Thread nD τ).loc main_arg4)) shapeCasts_S180224x1024_S64x2816x1024) := by
  unfold layer
  rw [V_tok, V_w1, V_w3, V_w2]

/-- The host line after the region reshapes the region's result. -/
theorem tail_eq (c : Dev nD) :
    Pipeline.afterTail₀ cfgs (dats m) 0 (V0 m) [hostOps1] c main_v5 = result m c := by
  unfold Pipeline.afterTail₀
  show StableHlo.after hostOps1 _ (Proc.devRef .tc main_v5) = _
  after_results
  have e : Pipeline.withArrays (cfgs 0).spec c (V0 m c) (fun w => (dats m 0 c).arrAt w (cfgs 0).N)
      (Proc.devRef .tc main_v4) = layer m c :=
    (Pipeline.withArrays_arr spec0 launch0.win.arr_inj c _ _ 4).trans (final m c)
  rw [e, layer_eq]
  rfl

/-- Every weakly fair execution of the program ends with the result array at `result` and the arguments unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h c).2 main_v5 (Pipeline.mem_restRefs_of main_v5 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KernelValue

end
-- ==== Proof.RefSide.lean ====
/-
  The reference, read index by index: its rank-three result before the final reshape is the layer `mlp` of the four
  reshaped arguments. Its activation is spelt `a · (1 / (1 + exp (−a)))`; over the extended reals that quotient is the
  logistic function by definition.
-/
import proofs.«132635_j2302102471523_2_alg».proof.Proof.Gen.ReferenceIdeal.Read
import proofs.«132635_j2302102471523_2_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Cert.ExpertMlp

/-- A pre-activation of the reference: the contraction over the 1024 coordinates, its operands read at `(e, t, h)` and
    `(e, f, h)`. -/
theorem lidx_pre (e t : Fin 64) (f : Fin 2816) (h : Fin 1024) : lidx_main_v4 (ix3 e t f) h = ix3 e t h :=
  funext fun a => Fin.ext (by match a with | ⟨0, _⟩ => rfl | ⟨1, _⟩ => rfl | ⟨2, _⟩ => rfl)
theorem ridx_pre (e t : Fin 64) (f : Fin 2816) (h : Fin 1024) : ridx_main_v4 (ix3 e t f) h = ix3 e f h :=
  funext fun a => Fin.ext (by match a with | ⟨0, _⟩ => rfl | ⟨1, _⟩ => rfl | ⟨2, _⟩ => rfl)
/-- The second up-projection reads its operands at the same places. -/
theorem lidx_pre3 (e t : Fin 64) (f : Fin 2816) (h : Fin 1024) : lidx_main_v5 (ix3 e t f) h = ix3 e t h :=
  funext fun a => Fin.ext (by match a with | ⟨0, _⟩ => rfl | ⟨1, _⟩ => rfl | ⟨2, _⟩ => rfl)
theorem ridx_pre3 (e t : Fin 64) (f : Fin 2816) (h : Fin 1024) : ridx_main_v5 (ix3 e t f) h = ix3 e f h :=
  funext fun a => Fin.ext (by match a with | ⟨0, _⟩ => rfl | ⟨1, _⟩ => rfl | ⟨2, _⟩ => rfl)
/-- The down-projection's operands at feature `f`: the gated activation at `(e, t, f)`, the weight at `(e, f, c)`. -/
theorem lidx_down (e t : Fin 64) (c : Fin 1024) (f : Fin 2816) : lidx_main_v8 (ix3 e t c) f = ix3 e t f :=
  funext fun a => Fin.ext (by match a with | ⟨0, _⟩ => rfl | ⟨1, _⟩ => rfl | ⟨2, _⟩ => rfl)
theorem ridx_down (e t : Fin 64) (c : Fin 1024) (f : Fin 2816) : ridx_main_v8 (ix3 e t c) f = ix3 e f c :=
  funext fun a => Fin.ext (by match a with | ⟨0, _⟩ => rfl | ⟨1, _⟩ => rfl | ⟨2, _⟩ => rfl)

/-- The reference's rank-three result is the layer of its reshaped arguments. -/
theorem stage8_eq_mlp (x0 : (⟨S4096x1024, .f32⟩ : BufTy).Contents (Elt Ideal)) (x2 x3 x4 : (⟨S180224x1024, .f32⟩ : BufTy).Contents (Elt Ideal)) :
    val_main_v8 (F := Ideal) x0 x2 x3 x4
      = mlp (val_main_v0 (F := Ideal) x0) (val_main_v1 (F := Ideal) x2) (val_main_v2 (F := Ideal) x3) (val_main_v3 (F := Ideal) x4) := by
  funext i
  obtain ⟨e, t, c, rfl⟩ : ∃ (e t : Fin 64) (c : Fin 1024), i = ix3 e t c := ⟨i 0, i 1, i 2, eq_ix3 i⟩
  rw [val_main_v8_apply, mlp_apply]
  refine Finset.sum_congr rfl fun f _ => ?_
  rw [lidx_down, ridx_down, val_main_v7_apply, val_main_v6_apply, val_main_call0_v5_apply, val_main_call0_v4_apply,
    val_main_call0_cst_0_apply, val_main_call0_v3_apply, val_main_call0_v2_apply, val_main_call0_cst_apply,
    val_main_call0_v1_apply, val_main_call0_v0_apply, val_main_v4_apply, val_main_v5_apply]
  simp only [lidx_pre, ridx_pre, lidx_pre3, ridx_pre3]
  simp only [term, gate, pre, Ideal.logistic, Ideal.mulf_def, Ideal.hostDivf_def, Ideal.ofBits_def, Ideal.addf_def,
    Ideal.hostUnary_exp_def, Ideal.hostNegf_def, Ideal.negf_def, one_f32]

end Cert.ReferenceIdeal.RefValue

end
-- ==== Proof.lean ====
/-
  A gated expert layer: the kernel against its reference, over the extended reals.

  4096 tokens of 1024 coordinates come in 64 groups of 64, one group per expert. Expert `e` has two up-projection
  matrices and one down-projection matrix, each 2816 × 1024. For token `t` of expert `e`

      a f = ∑ h, x (e, t, h) · w1 (e, f, h)        b f = ∑ h, x (e, t, h) · w3 (e, f, h)
      out (e, t, c) = ∑ f, (a f · logistic (a f) · b f) · w2 (e, f, c).

  THE REFERENCE computes exactly this with three batched contractions; its activation is written
  `a · (1 / (1 + exp (−a)))`, which is `a · logistic a` by the definition of the logistic function on the extended reals
  (Proof/RefSide.lean, over the generated read-at-an-index lemmas).

  THE KERNEL walks a grid of 128 points, two per expert. At an expert's first point it zeroes an accumulator and adds
  the contribution of features 0 … 1407; at its second point it adds the contribution of features 1408 … 2815 and
  writes the accumulator out as the expert's block of the result (Proof/Pieces.lean, Accum.lean: what the body leaves;
  TileStep.lean: one step read entry by entry; Blocks.lean: which entries of the arrays a point sees; Final.lean: the
  blocks written back are the layer's blocks and cover the result). So the kernel's entry is
  `(0 + ∑ first half) + ∑ second half`, and the reference's is the one sum over all 2816 features. The two agree because
  a finite sum in a commutative monoid may be regrouped (Proof/Spec.lean `sum_halves`) — on the extended reals too, so
  the finiteness of the inputs is never used. Changes of float format are the identity here, and a product into a zero
  accumulator is its plain sum.

  Both programs reshape their arguments to rank three first and reshape the rank-three result back last, with the same
  reshapes, so the comparison is made on the rank-three arrays (Proof/KernelRun.lean).

  The three frame claims: the two kernels' are the generated frame theorems; the reference's is its generated run with
  the result dropped. The idealization rewrote nothing, so it preserves the kernel trivially.
-/
import proofs.«132635_j2302102471523_2_alg».proof.Defs
import proofs.«132635_j2302102471523_2_alg».proof.Proof.Gen.Kernel
import proofs.«132635_j2302102471523_2_alg».proof.Proof.Gen.Kernel.Skeleton
import proofs.«132635_j2302102471523_2_alg».proof.Proof.Gen.Kernel.Launch
import proofs.«132635_j2302102471523_2_alg».proof.Proof.Gen.Kernel.Points
import proofs.«132635_j2302102471523_2_alg».proof.Proof.Gen.Kernel.Frame
import proofs.«132635_j2302102471523_2_alg».proof.Proof.Gen.KernelIdeal
import proofs.«132635_j2302102471523_2_alg».proof.Proof.Gen.KernelIdeal.Skeleton
import proofs.«132635_j2302102471523_2_alg».proof.Proof.Gen.KernelIdeal.Launch
import proofs.«132635_j2302102471523_2_alg».proof.Proof.Gen.KernelIdeal.Points
import proofs.«132635_j2302102471523_2_alg».proof.Proof.Gen.KernelIdeal.Frame
import proofs.«132635_j2302102471523_2_alg».proof.Proof.Gen.ReferenceIdeal
import proofs.«132635_j2302102471523_2_alg».proof.Proof.Gen.ReferenceIdeal.Run
import proofs.«132635_j2302102471523_2_alg».proof.Proof.Gen.ReferenceIdeal.Read
import proofs.«132635_j2302102471523_2_alg».proof.Proof.Gen.Pre_finite_inputs
import proofs.«132635_j2302102471523_2_alg».proof.Proof.KernelRun
import proofs.«132635_j2302102471523_2_alg».proof.Proof.RefSide
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments alone: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, both programs end with the reshaped layer of the reshaped arguments. -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq]
  unfold Cert.ReferenceIdeal.Read.val_main_v9
  rw [Cert.ReferenceIdeal.RefValue.stage8_eq_mlp, (hagree c).1, (hagree c).2.2.1, (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
